-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S27x64x64 : Shape := ⟨3, ![27, 64, 64]⟩
abbrev S64 : Shape := ⟨1, ![64]⟩
abbrev S27x32768 : Shape := ⟨2, ![27, 32768]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S131072x64 .f32) (main_arg1 : FVec F S27x64x64 .f32) (main_arg2 : FVec F S64 .f32) (main_arg3 : IVec S27x32768 32) (main_arg4 : IVec S27x32768 32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S131072x64 : Shape := ⟨2, ![131072, 64]⟩
abbrev S27x64x64 : Shape := ⟨3, ![27, 64, 64]⟩
abbrev S64 : Shape := ⟨1, ![64]⟩
abbrev S27x32768 : Shape := ⟨2, ![27, 32768]⟩
abbrev S_ : Shape := ⟨0, ![]⟩
abbrev S27x32768x1 : Shape := ⟨3, ![27, 32768, 1]⟩
abbrev S27x32768x64 : Shape := ⟨3, ![27, 32768, 64]⟩
abbrev S1x32768x64 : Shape := ⟨3, ![1, 32768, 64]⟩
abbrev S1x64x64 : Shape := ⟨3, ![1, 64, 64]⟩
abbrev S32768x64 : Shape := ⟨2, ![32768, 64]⟩
abbrev S64x64 : Shape := ⟨2, ![64, 64]⟩
abbrev S884736 : Shape := ⟨1, ![884736]⟩
abbrev S884736x64 : Shape := ⟨2, ![884736, 64]⟩
abbrev S884736x1 : Shape := ⟨2, ![884736, 1]⟩
abbrev S1x64 : Shape := ⟨2, ![1, 64]⟩

abbrev nBuf : Space → Nat
  | .hbm => 48
  | .vmem => 6
  | .smem => 0
  | _ => 0

abbrev bufTy : (tb : Table) → Fin (tcTables nBuf tb) → BufTy
  | .hbm, ⟨0, _⟩ => ⟨S131072x64, .f32⟩
  | .hbm, ⟨1, _⟩ => ⟨S27x64x64, .f32⟩
  | .hbm, ⟨2, _⟩ => ⟨S64, .f32⟩
  | .hbm, ⟨3, _⟩ => ⟨S27x32768, .i32⟩
  | .hbm, ⟨4, _⟩ => ⟨S27x32768, .i32⟩
  | .hbm, ⟨5, _⟩ => ⟨S_, .i32⟩
  | .hbm, ⟨6, _⟩ => ⟨S27x32768, .i32⟩
  | .hbm, ⟨7, _⟩ => ⟨S27x32768, .i1⟩
  | .hbm, ⟨8, _⟩ => ⟨S_, .i32⟩
  | .hbm, ⟨9, _⟩ => ⟨S_, .i32⟩
  | .hbm, ⟨10, _⟩ => ⟨S27x32768, .i32⟩
  | .hbm, ⟨11, _⟩ => ⟨S27x32768, .i32⟩
  | .hbm, ⟨12, _⟩ => ⟨S_, .i32⟩
  | .hbm, ⟨13, _⟩ => ⟨S27x32768, .i32⟩
  | .hbm, ⟨14, _⟩ => ⟨S27x32768, .i1⟩
  | .hbm, ⟨15, _⟩ => ⟨S_, .i32⟩
  | .hbm, ⟨16, _⟩ => ⟨S27x32768, .i32⟩
  | .hbm, ⟨17, _⟩ => ⟨S27x32768, .i32⟩
  | .hbm, ⟨18, _⟩ => ⟨S27x32768, .i32⟩
  | .hbm, ⟨19, _⟩ => ⟨S27x32768x1, .i32⟩
  | .hbm, ⟨20, _⟩ => ⟨S27x32768x64, .f32⟩
  | .hbm, ⟨21, _⟩ => ⟨S27x32768x1, .i1⟩
  | .hbm, ⟨22, _⟩ => ⟨S27x32768x1, .f32⟩
  | .hbm, ⟨23, _⟩ => ⟨S27x32768x64, .f32⟩
  | .hbm, ⟨24, _⟩ => ⟨S27x32768x64, .f32⟩
  | .hbm, ⟨25, _⟩ => ⟨S27x32768x64, .bf16⟩
  | .hbm, ⟨26, _⟩ => ⟨S27x64x64, .bf16⟩
  | .hbm, ⟨27, _⟩ => ⟨S27x32768x64, .f32⟩
  | .hbm, ⟨28, _⟩ => ⟨S_, .i32⟩
  | .hbm, ⟨29, _⟩ => ⟨S_, .i32⟩
  | .hbm, ⟨30, _⟩ => ⟨S27x32768, .i32⟩
  | .hbm, ⟨31, _⟩ => ⟨S27x32768, .i32⟩
  | .hbm, ⟨32, _⟩ => ⟨S884736, .i32⟩
  | .hbm, ⟨33, _⟩ => ⟨S_, .f32⟩
  | .hbm, ⟨34, _⟩ => ⟨S131072x64, .f32⟩
  | .hbm, ⟨35, _⟩ => ⟨S884736x64, .f32⟩
  | .hbm, ⟨36, _⟩ => ⟨S_, .i32⟩
  | .hbm, ⟨37, _⟩ => ⟨S884736, .i32⟩
  | .hbm, ⟨38, _⟩ => ⟨S884736, .i1⟩
  | .hbm, ⟨39, _⟩ => ⟨S_, .i32⟩
  | .hbm, ⟨40, _⟩ => ⟨S884736, .i32⟩
  | .hbm, ⟨41, _⟩ => ⟨S884736, .i32⟩
  | .hbm, ⟨42, _⟩ => ⟨S884736, .i32⟩
  | .hbm, ⟨43, _⟩ => ⟨S884736x1, .i32⟩
  | .hbm, ⟨44, _⟩ => ⟨S131072x64, .f32⟩
  | .hbm, ⟨45, _⟩ => ⟨S1x64, .f32⟩
  | .hbm, ⟨46, _⟩ => ⟨S131072x64, .f32⟩
  | .hbm, ⟨47, _⟩ => ⟨S131072x64, .f32⟩
  | .local _ .vmem, ⟨0, _⟩ => ⟨S1x32768x64, .bf16⟩
  | .local _ .vmem, ⟨1, _⟩ => ⟨S1x32768x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x32768x64, .f32⟩
  | .local _ .vmem, ⟨5, _⟩ => ⟨S1x32768x64, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![27], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32768x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S27x32768 : S_.BroadcastsInDim S27x32768 (![] : Fin 0 → Fin S27x32768.rank)
  bcast_S27x32768_S27x32768x1_0_1 : S27x32768.BroadcastsInDim S27x32768x1 (![0, 1] : Fin 2 → Fin S27x32768x1.rank)
  bcast_S27x32768x1_S27x32768x64_0_1_2 : S27x32768x1.BroadcastsInDim S27x32768x64 (![0, 1, 2] : Fin 3 → Fin S27x32768x64.rank)
  bitsLt_bf16_f32 : FTy.bits .bf16 < FTy.bits .f32
  inb_S1x32768x64_S1x32768x64_0_0_0 : ∀ a, (![0, 0, 0] : Fin 3 → Nat) a + S1x32768x64.size a ≤ S1x32768x64.size a
  h_S1x32768x64 : 0 < S1x32768x64.numel
  shapeCasts_S1x32768x64_S32768x64 : S1x32768x64.ShapeCasts S32768x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S32768x64_S1x32768x64 : S32768x64.ShapeCasts S1x32768x64
  shapeCasts_S27x32768_S884736 : S27x32768.ShapeCasts S884736
  bcast_S_S131072x64 : S_.BroadcastsInDim S131072x64 (![] : Fin 0 → Fin S131072x64.rank)
  shapeCasts_S27x32768x64_S884736x64 : S27x32768x64.ShapeCasts S884736x64
  bcast_S_S884736 : S_.BroadcastsInDim S884736 (![] : Fin 0 → Fin S884736.rank)
  bcast_S884736_S884736x1_0 : S884736.BroadcastsInDim S884736x1 (![0] : Fin 1 → Fin S884736x1.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  gather_S131072x64_S27x32768x1_S27x32768x64_2_0_n_n_0_2_164_wf : GatherDims.WF S131072x64 S27x32768x1 S27x32768x64 [2] [0] [] [0] [] 2 ![1, 64]
  dot_S32768x64_S64x64_S32768x64_1_0_0_1_n_n_wf : DotDims.WF S32768x64 S64x64 S32768x64 [1] [0] [0] [1] [] []
  scatter_S131072x64_S884736x1_S884736x64_1_0_0_1_wf : ScatterDims.WF S131072x64 S884736x1 S884736x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32768x64.size a ≤ S27x32768x64.size a
  hwx0_0 : ∀ i : grid0.Coords, EltTy.bits .bf16 = 32 ∨ (Rect.block (s := S27x32768x64) S1x32768x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768x64.size a ≤ S27x32768x64.size a
  hwx0_2 : ∀ i : grid0.Coords, EltTy.bits .f32 = 32 ∨ (Rect.block (s := S27x32768x64) S1x32768x64.size (cc0_transform_2 i) (hinb0_2 i)).WholeWords (EltTy.packing .f32)

variable [Facts₀]

def gather_S131072x64_S27x32768x1_S27x32768x64_2_0_n_n_0_2_164 : GatherDims S131072x64 S27x32768x1 S27x32768x64 where
  offsetDims := [2]
  collapsedSliceDims := [0]
  operandBatchingDims := []
  startIndicesBatchingDims := []
  startIndexMap := [0]
  indexVectorDim := 2
  sliceSizes := ![1, 64]
  wf := gather_S131072x64_S27x32768x1_S27x32768x64_2_0_n_n_0_2_164_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def scatter_S131072x64_S884736x1_S884736x64_1_0_0_1 : ScatterDims S131072x64 S884736x1 S884736x64 where
  updateWindowDims := [1]
  insertedWindowDims := [0]
  scatterDimsToOperandDims := [0]
  indexVectorDim := 1
  wf := scatter_S131072x64_S884736x1_S884736x64_1_0_0_1_wf

abbrev win0_0 : Pipeline.Window sig grid0 :=
  Pipeline.Window.ofSpec (Memref.whole main_v14) S1x32768x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x32768x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x64 : Shape := ⟨2, ![131072, 64]⟩
abbrev S27x64x64 : Shape := ⟨3, ![27, 64, 64]⟩
abbrev S64 : Shape := ⟨1, ![64]⟩
abbrev S27x32768 : Shape := ⟨2, ![27, 32768]⟩
abbrev S_ : Shape := ⟨0, ![]⟩
abbrev S27x32768x1 : Shape := ⟨3, ![27, 32768, 1]⟩
abbrev S27x32768x64 : Shape := ⟨3, ![27, 32768, 64]⟩
abbrev S884736 : Shape := ⟨1, ![884736]⟩
abbrev S884736x64 : Shape := ⟨2, ![884736, 64]⟩
abbrev S884736x1 : Shape := ⟨2, ![884736, 1]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S27x64x64, .f32⟩
  | .hbm, ⟨2, _⟩ => ⟨S64, .f32⟩
  | .hbm, ⟨3, _⟩ => ⟨S27x32768, .i32⟩
  | .hbm, ⟨4, _⟩ => ⟨S27x32768, .i32⟩
  | .hbm, ⟨5, _⟩ => ⟨S_, .i32⟩
  | .hbm, ⟨6, _⟩ => ⟨S27x32768, .i32⟩
  | .hbm, ⟨7, _⟩ => ⟨S27x32768, .i1⟩
  | .hbm, ⟨8, _⟩ => ⟨S_, .i32⟩
  | .hbm, ⟨9, _⟩ => ⟨S_, .i32⟩
  | .hbm, ⟨10, _⟩ => ⟨S27x32768, .i32⟩
  | .hbm, ⟨11, _⟩ => ⟨S27x32768, .i32⟩
  | .hbm, ⟨12, _⟩ => ⟨S_, .i32⟩
  | .hbm, ⟨13, _⟩ => ⟨S27x32768, .i32⟩
  | .hbm, ⟨14, _⟩ => ⟨S27x32768, .i1⟩
  | .hbm, ⟨15, _⟩ => ⟨S_, .i32⟩
  | .hbm, ⟨16, _⟩ => ⟨S27x32768, .i32⟩
  | .hbm, ⟨17, _⟩ => ⟨S27x32768, .i32⟩
  | .hbm, ⟨18, _⟩ => ⟨S27x32768, .i32⟩
  | .hbm, ⟨19, _⟩ => ⟨S27x32768x1, .i32⟩
  | .hbm, ⟨20, _⟩ => ⟨S27x32768x64, .f32⟩
  | .hbm, ⟨21, _⟩ => ⟨S27x32768x1, .i1⟩
  | .hbm, ⟨22, _⟩ => ⟨S27x32768x1, .f32⟩
  | .hbm, ⟨23, _⟩ => ⟨S27x32768x64, .f32⟩
  | .hbm, ⟨24, _⟩ => ⟨S27x32768x64, .f32⟩
  | .hbm, ⟨25, _⟩ => ⟨S27x32768x64, .f32⟩
  | .hbm, ⟨26, _⟩ => ⟨S_, .i32⟩
  | .hbm, ⟨27, _⟩ => ⟨S_, .i32⟩
  | .hbm, ⟨28, _⟩ => ⟨S27x32768, .i32⟩
  | .hbm, ⟨29, _⟩ => ⟨S27x32768, .i32⟩
  | .hbm, ⟨30, _⟩ => ⟨S884736, .i32⟩
  | .hbm, ⟨31, _⟩ => ⟨S_, .f32⟩
  | .hbm, ⟨32, _⟩ => ⟨S131072x64, .f32⟩
  | .hbm, ⟨33, _⟩ => ⟨S884736x64, .f32⟩
  | .hbm, ⟨34, _⟩ => ⟨S_, .i32⟩
  | .hbm, ⟨35, _⟩ => ⟨S884736, .i32⟩
  | .hbm, ⟨36, _⟩ => ⟨S884736, .i1⟩
  | .hbm, ⟨37, _⟩ => ⟨S_, .i32⟩
  | .hbm, ⟨38, _⟩ => ⟨S884736, .i32⟩
  | .hbm, ⟨39, _⟩ => ⟨S884736, .i32⟩
  | .hbm, ⟨40, _⟩ => ⟨S884736, .i32⟩
  | .hbm, ⟨41, _⟩ => ⟨S884736x1, .i32⟩
  | .hbm, ⟨42, _⟩ => ⟨S131072x64, .f32⟩
  | .hbm, ⟨43, _⟩ => ⟨S1x64, .f32⟩
  | .hbm, ⟨44, _⟩ => ⟨S131072x64, .f32⟩
  | .hbm, ⟨45, _⟩ => ⟨S131072x64, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  bcast_S_S27x32768 : S_.BroadcastsInDim S27x32768 (![] : Fin 0 → Fin S27x32768.rank)
  bcast_S27x32768_S27x32768x1_0_1 : S27x32768.BroadcastsInDim S27x32768x1 (![0, 1] : Fin 2 → Fin S27x32768x1.rank)
  bcast_S27x32768x1_S27x32768x64_0_1_2 : S27x32768x1.BroadcastsInDim S27x32768x64 (![0, 1, 2] : Fin 3 → Fin S27x32768x64.rank)
  shapeCasts_S27x32768_S884736 : S27x32768.ShapeCasts S884736
  bcast_S_S131072x64 : S_.BroadcastsInDim S131072x64 (![] : Fin 0 → Fin S131072x64.rank)
  shapeCasts_S27x32768x64_S884736x64 : S27x32768x64.ShapeCasts S884736x64
  bcast_S_S884736 : S_.BroadcastsInDim S884736 (![] : Fin 0 → Fin S884736.rank)
  bcast_S884736_S884736x1_0 : S884736.BroadcastsInDim S884736x1 (![0] : Fin 1 → Fin S884736x1.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  gather_S131072x64_S27x32768x1_S27x32768x64_2_0_n_n_0_2_164_wf : GatherDims.WF S131072x64 S27x32768x1 S27x32768x64 [2] [0] [] [0] [] 2 ![1, 64]
  dot_S27x32768x64_S27x64x64_S27x32768x64_2_1_1_2_0_0_wf : DotDims.WF S27x32768x64 S27x64x64 S27x32768x64 [2] [1] [1] [2] [0] [0]
  scatter_S131072x64_S884736x1_S884736x64_1_0_0_1_wf : ScatterDims.WF S131072x64 S884736x1 S884736x64 [1] [0] [0] 1

variable [Facts₀]

def gather_S131072x64_S27x32768x1_S27x32768x64_2_0_n_n_0_2_164 : GatherDims S131072x64 S27x32768x1 S27x32768x64 where
  offsetDims := [2]
  collapsedSliceDims := [0]
  operandBatchingDims := []
  startIndicesBatchingDims := []
  startIndexMap := [0]
  indexVectorDim := 2
  sliceSizes := ![1, 64]
  wf := gather_S131072x64_S27x32768x1_S27x32768x64_2_0_n_n_0_2_164_wf
def dot_S27x32768x64_S27x64x64_S27x32768x64_2_1_1_2_0_0 : DotDims S27x32768x64 S27x64x64 S27x32768x64 where
  lhsContracting := [2]
  rhsContracting := [1]
  lhsNonContracting := [1]
  rhsNonContracting := [2]
  lhsBatch := [0]
  rhsBatch := [0]
  wf := dot_S27x32768x64_S27x64x64_S27x32768x64_2_1_1_2_0_0_wf
def scatter_S131072x64_S884736x1_S884736x64_1_0_0_1 : ScatterDims S131072x64 S884736x1 S884736x64 where
  updateWindowDims := [1]
  insertedWindowDims := [0]
  scatterDimsToOperandDims := [0]
  indexVectorDim := 1
  wf := scatter_S131072x64_S884736x1_S884736x64_1_0_0_1_wf

class Facts : Prop extends Facts₀ where

variable [Facts]
-- ==== Proof.EntryArrays.lean ====
/-
  What the region finds in the arrays it stages, and in the validity mask the later host lines read.

  Before the launch the host computes, from the feature rows x0 and the input map x3: the mask (x3 ≥ 0), the
  safe row numbers (x3 where valid, else 0, wrapped into range), the gathered rows times the mask, and the two
  roundings to bf16. The reference computes the same gathered-and-masked rows, unrounded. At the ideal instance
  a rounding is the identity, so the left operand the kernel stages is exactly the reference's masked gather,
  and the right operand is the weight array itself.
-/
import proofs.«105499_j44040594653251_2_alg».proof.Proof.Gen.KernelIdeal.Frame
import proofs.«105499_j44040594653251_2_alg».proof.Proof.Gen.ReferenceIdeal.Read
import Idealize.ShloMosaic.Lib.StableHlo.Run

noncomputable section

namespace Cert.KernelIdeal.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The left operand as the region finds it: the reference's gathered rows times the mask (the rounding to bf16
    is the identity on extended reals). -/
theorem entry_gathered (c : Dev nD) :
    (V m c main_v14 : S27x32768x64.Idx → EReal)
      = Cert.ReferenceIdeal.Read.val_main_v13 (F := Ideal) (m ((c : Thread nD τ).loc main_arg0)) (m ((c : Thread nD τ).loc main_arg3)) := by
  dsimp only [Gen.V, Gen.V0]
  simp only [Gen.hostOps0, Gen.hostOps0_1, Gen.hostOps0_2, List.flatten_cons, List.flatten_nil, List.append_nil, List.cons_append, List.nil_append]
  after_results_simp
  rfl

/-- The right operand as the region finds it: the weights (rounded to bf16: the identity). -/
theorem entry_weight (c : Dev nD) :
    (V m c main_v15 : S27x64x64.Idx → EReal) = m ((c : Thread nD τ).loc main_arg1) := by
  dsimp only [Gen.V, Gen.V0]
  simp only [Gen.hostOps0, Gen.hostOps0_1, Gen.hostOps0_2, List.flatten_cons, List.flatten_nil, List.append_nil, List.cons_append, List.nil_append]
  after_results_simp
  rfl

/-- The validity mask as the region finds it (and as the host lines after the region read it): x3 ≥ 0. -/
theorem entry_mask (c : Dev nD) :
    V m c main_v1 = Cert.ReferenceIdeal.Read.val_main_v1 (F := Ideal) (m ((c : Thread nD τ).loc main_arg3)) := by
  dsimp only [Gen.V, Gen.V0]
  simp only [Gen.hostOps0, Gen.hostOps0_1, Gen.hostOps0_2, List.flatten_cons, List.flatten_nil, List.append_nil, List.cons_append, List.nil_append]
  after_results_simp
  rfl

end Cert.KernelIdeal.Bridge

end
-- ==== Proof.BlockProduct.lean ====
/-
  One grid point's block of the kernel, read at an index.

  The body loads a [1, 32768, 64] block of the gathered rows and a [1, 64, 64] block of the weights, drops the
  leading unit axis of each, multiplies the two matrices into a zero accumulator and puts the unit axis back. At
  the ideal instance a change of float format is the identity and the matrix product into zero is the plain sum
  over the contracted axis, so entry (z, p, o) of what the body stores is
      ∑ k : Fin 64, x0 (z, p, k) * x1 (z, k, o).
-/
import proofs.«105499_j44040594653251_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.TcCoe Idealize.ShloMosaic.ValueIdx

/-! ## The product's index maps, coordinate by coordinate

The body's matrix product contracts axis 1 of its left operand with axis 0 of its right operand and has no batch
axis: the left operand is read at (row of the result, k), the right one at (k, column of the result). -/

theorem lhs_row (i : S32768x64.Idx) (q : (dot_S32768x64_S64x64_S32768x64_1_0_0_1_n_n).contr.Idx) :
    ((dot_S32768x64_S64x64_S32768x64_1_0_0_1_n_n).lhsIdx i q 0).val = (i 0).val := by
  unfold DotDims.lhsIdx
  rw [dif_neg (show ¬(0 : Fin S32768x64.rank) ∈ (dot_S32768x64_S64x64_S32768x64_1_0_0_1_n_n).lhsBatch by decide),
    dif_pos (show (0 : Fin S32768x64.rank) ∈ (dot_S32768x64_S64x64_S32768x64_1_0_0_1_n_n).lhsNonContracting by decide)]
  rfl
theorem lhs_col (i : S32768x64.Idx) (q : (dot_S32768x64_S64x64_S32768x64_1_0_0_1_n_n).contr.Idx) :
    ((dot_S32768x64_S64x64_S32768x64_1_0_0_1_n_n).lhsIdx i q 1).val = (q ⟨0, by decide⟩).val :=
  (dot_S32768x64_S64x64_S32768x64_1_0_0_1_n_n).lhsIdx_val_of_single rfl i q
theorem rhs_row (i : S32768x64.Idx) (q : (dot_S32768x64_S64x64_S32768x64_1_0_0_1_n_n).contr.Idx) :
    ((dot_S32768x64_S64x64_S32768x64_1_0_0_1_n_n).rhsIdx i q 0).val = (q ⟨0, by decide⟩).val :=
  (dot_S32768x64_S64x64_S32768x64_1_0_0_1_n_n).rhsIdx_val_of_single rfl i q
theorem rhs_col (i : S32768x64.Idx) (q : (dot_S32768x64_S64x64_S32768x64_1_0_0_1_n_n).contr.Idx) :
    ((dot_S32768x64_S64x64_S32768x64_1_0_0_1_n_n).rhsIdx i q 1).val = (i 1).val := by
  unfold DotDims.rhsIdx
  rw [dif_neg (show ¬(1 : Fin S64x64.rank) ∈ (dot_S32768x64_S64x64_S32768x64_1_0_0_1_n_n).rhsBatch by decide),
    dif_pos (show (1 : Fin S64x64.rank) ∈ (dot_S32768x64_S64x64_S32768x64_1_0_0_1_n_n).rhsNonContracting by decide)]
  rfl

/-! ## The stored block at an index -/

/-- Entry (z, p, o) of the block the body stores is the sum over k of the gathered block at (z, p, k) times the
    weight block at (z, k, o): the unit axis is dropped and put back by the two reshapes, the accumulator is the
    zero splat, and the contraction index is its one coordinate. -/
theorem block_apply (x0 : Vec Ideal S1x32768x64 .bf16) (x1 : Vec Ideal S1x64x64 .bf16) (z : Fin 1) (p : Fin 32768) (o : Fin 64) :
    k0_pay1 (F := Ideal) x0 x1 (ix3 z p o) = ∑ k : Fin 64, x0 (ix3 z p k) * x1 (ix3 z k o) := by
  have hz : z.val = 0 := by have := z.isLt; omega
  unfold k0_pay1
  refine (shapeCast_addUnit_apply ![32768, 64] _ _ (ix3 z p o)).trans ?_
  have e2 : (fun a : Fin 2 => ix3 z p o a.succ) = (ix2 p o : S32768x64.Idx) := funext fun a => by
    match a with | ⟨0, _⟩ => rfl | ⟨1, _⟩ => rfl
  refine (congrArg _ e2).trans ?_
  simp only [matmul]
  refine (Ideal.matmul_constant_zero_apply _ none _ _ (ix2 p o)).trans ?_
  rw [← Equiv.sum_comp (contrEquiv1 dot_S32768x64_S64x64_S32768x64_1_0_0_1_n_n 64 rfl rfl).symm]
  refine Finset.sum_congr rfl fun k _ => ?_
  have hk := contrEquiv1_symm_val dot_S32768x64_S64x64_S32768x64_1_0_0_1_n_n 64 rfl rfl k
  generalize (contrEquiv1 dot_S32768x64_S64x64_S32768x64_1_0_0_1_n_n 64 rfl rfl).symm k = q at hk ⊢
  refine congrArg₂ (· * ·) ?_ ?_
  · refine (shapeCast_dropUnit_apply ![32768, 64] x0 _ _).trans (congrArg x0 (funext fun a => Fin.ext ?_))
    match a with
    | ⟨0, _⟩ => exact hz.symm
    | ⟨1, _⟩ => exact lhs_row (ix2 p o) q
    | ⟨2, _⟩ => exact (lhs_col (ix2 p o) q).trans hk
  · refine (shapeCast_dropUnit_apply ![64, 64] x1 _ _).trans (congrArg x1 (funext fun a => Fin.ext ?_))
    match a with
    | ⟨0, _⟩ => exact hz.symm
    | ⟨1, _⟩ => exact (rhs_row (ix2 p o) q).trans hk
    | ⟨2, _⟩ => exact rhs_col (ix2 p o) q

end Cert.KernelIdeal.Bridge

end
-- ==== Proof.ProductArray.lean ====
/-
  The array the kernel's launch leaves: the batched product of the masked gather with the weights.

  The grid has 27 points, one per kernel offset. Point t stages block t of the gathered rows ([1, 32768, 64] of
  [27, 32768, 64]) and block t of the weights ([1, 64, 64] of [27, 64, 64]) and writes back block t of the result.
  So what point t writes back at (z, p, o) is ∑ k, gathered (t, p, k) * weight (t, k, o), which is the reference's
  batched dot_general read at (t, p, o): the 27 blocks are restrictions of ONE whole-array function, and since
  every index (q, p, o) lies in block q they cover the array.
-/
import proofs.«105499_j44040594653251_2_alg».proof.Proof.Gen.KernelIdeal.Frame
import proofs.«105499_j44040594653251_2_alg».proof.Proof.Gen.ReferenceIdeal.Read
import proofs.«105499_j44040594653251_2_alg».proof.Proof.BlockProduct
import proofs.«105499_j44040594653251_2_alg».proof.Proof.EntryArrays
import Idealize.ShloMosaic.Lib.Pipeline.Value
import Idealize.ShloMosaic.Lib.ValueIdx

set_option maxRecDepth 16384

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-- The batched product of the masked gather with the weights, as the reference states it: entry (q, p, o) is
    ∑ k, (gathered rows × mask) (q, p, k) * weight (q, k, o). -/
abbrev prod (c : Dev nD) : S27x32768x64.Idx → EReal :=
  Cert.ReferenceIdeal.Read.val_main_v14 (F := Ideal) (m ((c : Thread nD τ).loc main_arg0)) (m ((c : Thread nD τ).loc main_arg1)) (m ((c : Thread nD τ).loc main_arg3))

theorem zero3 : (![0, 0, 0] : Fin 3 → Nat) = fun _ => 0 := funext fun a => by fin_cases a <;> rfl

/-- The three windows' block indices at a grid point: all three move along the leading axis together and stay at
    block 0 on the other two axes. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 :=
  (by decide +kernel : ∀ t : Fin grid0.N, _)

/-- Every leading coordinate q < 27 is some grid point's output block. -/
theorem idx_onto : ∀ q : Fin 27, ∃ t : Fin cfg0.N, win0_2.index t = ![q.val, 0, 0] :=
  (by decide +kernel : ∀ q : Fin 27, ∃ t : Fin grid0.N, win0_2.index t = ![q.val, 0, 0])

/-- What grid point t writes back is block t of the batched product: the stored block at (z, p, o) is the sum over k
    of the two staged blocks, each staged block is its array read at the block's offset, the left array is the
    reference's masked gather and the right one the weights, and the reference's product at the output block's
    index (t, p, o) is the same sum. -/
theorem flushed_eq (c : Dev nD) (t : Fin cfg0.N) :
    (dats m 0 c).flushed 2 t = ((cfg0.win 2).blk t).view.read (Elt Ideal) (prod m c) := by
  show (cfg0.win 2).cut (grid0.coords t) ((dats m 0 c).after 2 t) = _
  rw [after0_2]
  unfold out0_2
  rw [View.canon_unit_zero zero3]
  simp only [View.ld_unit_zero (S := S1x32768x64) zero3, View.ld_unit_zero (S := S1x64x64) zero3]
  obtain ⟨e00, e01, e02, e10, e11, e12, e21, e22⟩ := idx_facts t
  funext j
  obtain ⟨z, p, o, rfl⟩ : ∃ (z : Fin 1) (p : Fin 32768) (o : Fin 64), j = ix3 z p o := ⟨j 0, j 1, j 2, eq_ix3 j⟩
  show k0_pay1 (iblk m c 0 t) (iblk m c 1 t) (ix3 z p o) = prod m c (((cfg0.win 2).blk t).view.emb (ix3 z p o))
  refine (block_apply (iblk m c 0 t) (iblk m c 1 t) z p o).trans ?_
  refine ((Cert.ReferenceIdeal.Read.val_main_v14_apply _ _ _ _).trans ?_).symm
  refine Finset.sum_congr rfl fun k _ => ?_
  refine congrArg₂ (· * ·) ?_ ?_
  · show _ = V m c main_v14 (((cfg0.win 0).blk t).view.emb (ix3 z p k))
    refine Eq.trans ?_ (congrFun (entry_gathered m c) _).symm
    refine congrArg _ (funext fun a => Fin.ext ?_)
    match a with
    | ⟨0, _⟩ => show win0_2.index t (0 : Fin 3) * 1 + 1 * z.val = win0_0.index t (0 : Fin 3) * 1 + 1 * z.val; omega
    | ⟨1, _⟩ => show win0_2.index t (1 : Fin 3) * 32768 + 1 * p.val = win0_0.index t (1 : Fin 3) * 32768 + 1 * p.val; omega
    | ⟨2, _⟩ => show k.val = win0_0.index t (2 : Fin 3) * 64 + 1 * k.val; omega
  · show _ = V m c main_v15 (((cfg0.win 1).blk t).view.emb (ix3 z k o))
    refine Eq.trans ?_ (congrFun (entry_weight m c) _).symm
    refine congrArg _ (funext fun a => Fin.ext ?_)
    match a with
    | ⟨0, _⟩ => show win0_2.index t (0 : Fin 3) * 1 + 1 * z.val = win0_1.index t (0 : Fin 3) * 1 + 1 * z.val; omega
    | ⟨1, _⟩ => show k.val = win0_1.index t (1 : Fin 3) * 64 + 1 * k.val; omega
    | ⟨2, _⟩ => show win0_2.index t (2 : Fin 3) * 64 + 1 * o.val = win0_1.index t (2 : Fin 3) * 64 + 1 * o.val; omega

/-- An index of the result array is in point t's block iff each coordinate is in the block's range on its axis. -/
theorem mem_blk (t : Fin cfg0.N) (i : S27x32768x64.Idx) :
    i ∈ ((cfg0.win 2).blk t).view.set ↔ ∀ a : Fin 3, win0_2.index t a * S1x32768x64.size a ≤ (i a).val ∧ (i a).val < win0_2.index t a * S1x32768x64.size a + S1x32768x64.size a := by
  show i ∈ ((View.whole main_v16).slice (win0_2.rect t)).set ↔ _
  rw [View.set_slice_whole, Rect.mem_set_unit]
  exact Iff.rfl

/-- The 27 blocks cover the result array: index (q, p, o) is in the block of the point whose output block index is q. -/
theorem cover (i : S27x32768x64.Idx) :
    ∃ t : Fin cfg0.N, (cfg0.win 2).flush t = true ∧ i ∈ ((cfg0.win 2).blk t).view.set := by
  have h0 : (i 0).val < 27 := (i 0).isLt
  have h1 : (i 1).val < 32768 := (i 1).isLt
  have h2 : (i 2).val < 64 := (i 2).isLt
  obtain ⟨t, ht⟩ := idx_onto ⟨(i 0).val, h0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 32768 ≤ (i 1).val ∧ (i 1).val < win0_2.index t (1 : Fin 3) * 32768 + 32768; omega
  | ⟨2, _⟩ => show win0_2.index t (2 : Fin 3) * 64 ≤ (i 2).val ∧ (i 2).val < win0_2.index t (2 : Fin 3) * 64 + 64; omega

/-- The result array after the launch is the batched product, whole. -/
theorem product_array (c : Dev nD) : (dats m 0 c).arrAt 2 cfg0.N = prod m c :=
  (dats m 0 c).arrAt_eq_of_cover 2 (prod m c) (fun t _ => flushed_eq m c t) cover

end Cert.KernelIdeal.Bridge

end
-- ==== Proof.Result.lean ====
/-
  The kernel's result: the host lines after the launch, applied to the batched product.

  After the launch both programs do the same thing with the product y [27, 32768, 64]: the output map x4 is masked
  like the input map (x4 where x3 ≥ 0, else 0), flattened to 884736 row numbers and wrapped into range; y is
  flattened to [884736, 64]; the rows of y are scatter-added into a zero array [131072, 64]; the bias is added to
  every row. That tail is one function of (mask, x4, y, bias); the kernel applies it to the array its launch
  left, which is the reference's batched product (ProductArray), so the two results are the same term.
-/
import proofs.«105499_j44040594653251_2_alg».proof.Proof.Gen.KernelIdeal.Frame
import proofs.«105499_j44040594653251_2_alg».proof.Proof.Gen.ReferenceIdeal.Read
import proofs.«105499_j44040594653251_2_alg».proof.Proof.EntryArrays
import proofs.«105499_j44040594653251_2_alg».proof.Proof.ProductArray
import Idealize.ShloMosaic.Lib.StableHlo.Run

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- The host lines after the launch as ONE function of the validity mask, the output map, the product and the bias:
    scatter-add the product's rows into a zero array at the masked, flattened, wrapped output rows, then add the
    bias to every row. Its operations are never evaluated: both programs spell the same term, and the proof only
    matches the two spellings and compares the arguments. -/
def scatterBias (mask : S27x32768.Idx → BitVec 1) (x4 : S27x32768.Idx → BitVec 32) (y : S27x32768x64.Idx → EReal) (x2 : S64.Idx → EReal) :
    S131072x64.Idx → EReal :=
  addf (F := Ideal)
    (Host.scatterAdd (F := Ideal) scatter_S131072x64_S884736x1_S884736x64_1_0_0_1
      (broadcastInDim S131072x64 ![] bcast_S_S131072x64 (constant (F := Ideal) S_ .f32 0x00000000#32))
      (broadcastInDim S884736x1 ![0] bcast_S884736_S884736x1_0
        (select
          (cmpi .slt (shapeCast S884736 (select mask x4 (broadcastInDim S27x32768 ![] bcast_S_S27x32768 (id (constantI S_ 32 0#32)))) shapeCasts_S27x32768_S884736)
            (broadcastInDim S884736 ![] bcast_S_S884736 (constantI S_ 32 0#32)))
          (addi (shapeCast S884736 (select mask x4 (broadcastInDim S27x32768 ![] bcast_S_S27x32768 (id (constantI S_ 32 0#32)))) shapeCasts_S27x32768_S884736)
            (broadcastInDim S884736 ![] bcast_S_S884736 (constantI S_ 32 131072#32)))
          (shapeCast S884736 (select mask x4 (broadcastInDim S27x32768 ![] bcast_S_S27x32768 (id (constantI S_ 32 0#32)))) shapeCasts_S27x32768_S884736)))
      (shapeCast S884736x64 y shapeCasts_S27x32768x64_S884736x64))
    (broadcastInDim S131072x64 ![0, 1] bcast_S1x64_S131072x64_0_1 (broadcastInDim S1x64 ![1] bcast_S64_S1x64_1 x2))

/-- The kernel's result buffer after the host lines that follow the launch: that function of what those lines find
    in the mask, the output map, the launch's result array and the bias. -/
theorem tail_read (c : Dev nD) :
    Pipeline.afterTail₀ cfgs (dats m) 0 (V0 m) [hostOps1, hostOps1_1, hostOps1_2] c main_v30
      = scatterBias
          (Pipeline.withArrays (cfgs 0).spec c (V0 m c) (fun w => (dats m 0 c).arrAt w (cfgs 0).N) (Proc.devRef .tc main_v1))
          (Pipeline.withArrays (cfgs 0).spec c (V0 m c) (fun w => (dats m 0 c).arrAt w (cfgs 0).N) (Proc.devRef .tc main_arg4))
          (Pipeline.withArrays (cfgs 0).spec c (V0 m c) (fun w => (dats m 0 c).arrAt w (cfgs 0).N) (Proc.devRef .tc main_v16))
          (Pipeline.withArrays (cfgs 0).spec c (V0 m c) (fun w => (dats m 0 c).arrAt w (cfgs 0).N) (Proc.devRef .tc main_arg2)) := by
  unfold Pipeline.afterTail₀
  simp only [hostOps1, hostOps1_1, hostOps1_2, List.flatten_cons, List.flatten_nil, List.append_nil, List.cons_append, List.nil_append]
  after_results_simp
  rfl

/-- The reference's result is the same function of its own mask, output map, batched product and bias. -/
theorem scatterBias_ref (x0 : S131072x64.Idx → EReal) (x1 : S27x64x64.Idx → EReal) (x2 : S64.Idx → EReal) (x3 x4 : S27x32768.Idx → BitVec 32) :
    scatterBias (Cert.ReferenceIdeal.Read.val_main_v1 (F := Ideal) x3) x4 (Cert.ReferenceIdeal.Read.val_main_v14 (F := Ideal) x0 x1 x3) x2
      = Cert.ReferenceIdeal.Read.val_main_v28 (F := Ideal) x0 x1 x2 x3 x4 := rfl

/-- The kernel's result buffer ends at the reference's function of the argument arrays: the mask, the output map
    and the bias are found as launched, and the launch's result array is the batched product. -/
theorem result_eq (c : Dev nD) :
    Pipeline.afterTail₀ cfgs (dats m) 0 (V0 m) [hostOps1, hostOps1_1, hostOps1_2] c main_v30
      = Cert.ReferenceIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_read]
  have h1 : Pipeline.withArrays (cfgs 0).spec c (V0 m c) (fun w => (dats m 0 c).arrAt w (cfgs 0).N) (Proc.devRef .tc main_v1)
      = Cert.ReferenceIdeal.Read.val_main_v1 (F := Ideal) (m ((c : Thread nD τ).loc main_arg3)) :=
    (Pipeline.withArrays_of_ne _ c (V0 m c) _ main_v1 (by exact (by decide : ∀ w, Pipeline.arrRef spec0 w ≠ main_v1))).trans (entry_mask m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have h16 : Pipeline.withArrays (cfgs 0).spec c (V0 m c) (fun w => (dats m 0 c).arrAt w (cfgs 0).N) (Proc.devRef .tc main_v16)
      = prod m c :=
    (Pipeline.withArrays_arr spec0 launch0.win.arr_inj c _ _ 2).trans (product_array m c)
  rw [h1, h4, h2, h16]
  exact scatterBias_ref _ _ _ _ _

/-- The idealized kernel's run, read: every weakly fair execution terminates with the result buffer at the
    reference's function of the argument arrays, and the arguments unchanged. -/
theorem run : θ_run defs (onTc (τ := τ) (main (F := Ideal))) ⟨m, fun _ => 0, ρ⟩ (fun r => ∀ c : Dev nD,
      r.2.mem ((c.tc : Thread nD τ).loc main_v30)
        = Cert.ReferenceIdeal.Read.val_main_v28 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v30 (Pipeline.mem_restRefs_of main_v30 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Bridge

end
-- ==== Proof.lean ====
/-
  Sparse convolution by kernel offsets: gather the input rows of each (input row, output row) pair, mask the padding
  pairs, multiply the gathered [27, 32768, 64] rows by the per-offset [27, 64, 64] weights, scatter-add the products
  into the output rows, add the bias.

  The kernel and the reference run the same host operations before and after the product; they differ only in the
  product itself. The kernel rounds both operands to bf16 and multiplies block by block on a grid of 27 points (one
  offset per point, each block a [32768, 64] × [64, 64] matrix product into a zero accumulator); the reference is one
  batched dot_general. On the extended reals a rounding is the identity and both products are, at (q, p, o),
      ∑ k : Fin 64, gathered (q, p, k) * weight (q, k, o)
  — a finite sum in a commutative monoid, so no finiteness of the inputs is needed. The 27 blocks cover the
  product array (ProductArray), the host lines after the launch are one function applied to it on both sides
  (Result), and so the two results are the same function of the argument arrays.

  The three frames: the two kernels' are their generated frame runs; the reference's is its generated run with the
  result dropped. The idealization rewrote nothing, so there is nothing to preserve.
-/
import proofs.«105499_j44040594653251_2_alg».proof.Defs
import proofs.«105499_j44040594653251_2_alg».proof.Proof.Gen.Kernel
import proofs.«105499_j44040594653251_2_alg».proof.Proof.Gen.Kernel.Skeleton
import proofs.«105499_j44040594653251_2_alg».proof.Proof.Gen.Kernel.Launch
import proofs.«105499_j44040594653251_2_alg».proof.Proof.Gen.Kernel.Points
import proofs.«105499_j44040594653251_2_alg».proof.Proof.Gen.Kernel.Frame
import proofs.«105499_j44040594653251_2_alg».proof.Proof.Gen.KernelIdeal
import proofs.«105499_j44040594653251_2_alg».proof.Proof.Gen.KernelIdeal.Skeleton
import proofs.«105499_j44040594653251_2_alg».proof.Proof.Gen.KernelIdeal.Launch
import proofs.«105499_j44040594653251_2_alg».proof.Proof.Gen.KernelIdeal.Points
import proofs.«105499_j44040594653251_2_alg».proof.Proof.Gen.KernelIdeal.Frame
import proofs.«105499_j44040594653251_2_alg».proof.Proof.Gen.ReferenceIdeal
import proofs.«105499_j44040594653251_2_alg».proof.Proof.Gen.Pre_finite_inputs
import proofs.«105499_j44040594653251_2_alg».proof.Proof.Gen.ReferenceIdeal.Run
import proofs.«105499_j44040594653251_2_alg».proof.Proof.Gen.ReferenceIdeal.Read
import proofs.«105499_j44040594653251_2_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result buffer at the reference's function of the argument arrays: the
    kernel by its run read back (Result), the reference by its own run, its arguments those of the kernel. -/
theorem algebraic : Cert.algebraic_KernelIdeal_ReferenceIdeal := by
  intro m ρ m' ρ' _ hagree
  refine ⟨fun c => Cert.ReferenceIdeal.Read.val_main_v28 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq _ _ _ _ _).trans ?_
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
